-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000x128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S100000, .i32⟩
  | 71 => ⟨S1x1600000, .i32⟩
  | 72 => ⟨S1600000, .i32⟩
  | 73 => ⟨S1700000, .i32⟩
  | 74 => ⟨S1x1600000, .i32⟩
  | 75 => ⟨S1600000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.NamedRun.lean ====
/-
  The kernel's run with its result named.

  The program is four kernel regions among stretches of host operations. The generated frame walks the whole of
  @main as nine segments and ends with every unscoped buffer of a core at the contents `Gen.W9`: the fold of the
  host stretches and of each region's write-backs from the launch memory. The frame claim reads only the six
  argument arrays off that last state. Here the same run is read at one more buffer: the result `main_v61`
  ends at `Gen.W9 … main_v61`, whatever the float instance.
-/
import proofs.«107062_j30700426232142_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every weakly fair execution of @main terminates, nothing faulting; the result buffer ends at the last
    boundary's contents and the six argument arrays as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Graph.lean ====
/-
  The graph side of a two-layer graph convolution, as whole-array functions.

  The graph has 100000 nodes and 1600000 given edges, to which one self-loop per node is added: 1700000 edges in all.
  `rowOf e` and `colOf e` are the edges' source and target nodes (the two rows of the edge array, each followed by
  0, 1, …, 99999). The degree of a node counts the edges it is the target of; `dinvOf` is degree^(-1/2) where the degree
  is positive and 0 elsewhere; the weight of an edge, `normOf`, is dinv(source) · dinv(target). A layer's aggregation
  `aggOf` sends node features `xw` (one row per node) to the array whose row `v` is the sum, over the edges with
  target `v`, of weight · (row `source` of `xw`). An index read as a node is first wrapped (a negative one has 100000
  added), as array indexing does.

  Both programs compute exactly these arrays by the same host operations (a scatter-add for the sums, gathers for the
  reads); nothing here looks inside a gather or a scatter. Stated for any float values: no arithmetic law is used.
-/
import proofs.«107062_j30700426232142_1_alg».proof.Proof.Gen.KernelIdeal

noncomputable section

namespace Cert.Graph

open Cert.KernelIdeal Cert.KernelIdeal.Facts₀ Cert.KernelIdeal.Facts Idealize.ShloMosaic

variable {F : FTy → Type} [FloatOps F]

/-- Arrays over the float values `F` (integer and boolean entries do not depend on `F`). -/
abbrev Arr (F : FTy → Type) [FloatOps F] (s : Shape) (e : EltTy) : Type := (⟨s, e⟩ : BufTy).Contents (Elt F)

/-- The edges' source nodes: row 0 of the edge array, then the self-loops 0 … 99999. -/
def rowOf (e : Arr F S2x1600000 .i32) : Arr F S1700000 .i32 :=
  concatenate S1700000 0
    [⟨S1600000, (shapeCast S1600000 (extractStridedSlice S1x1600000 ![0, 0] e slices_S2x1600000_S1x1600000_0_0) shapeCasts_S1x1600000_S1600000 : Arr F S1600000 .i32)⟩,
     ⟨S100000, (iotaInDim S100000 32 0 : Arr F S100000 .i32)⟩] concatenates_S1600000_S100000_S1700000_d0

/-- The edges' target nodes: row 1 of the edge array, then the self-loops 0 … 99999. -/
def colOf (e : Arr F S2x1600000 .i32) : Arr F S1700000 .i32 :=
  concatenate S1700000 0
    [⟨S1600000, (shapeCast S1600000 (extractStridedSlice S1x1600000 ![1, 0] e slices_S2x1600000_S1x1600000_1_0) shapeCasts_S1x1600000_S1600000 : Arr F S1600000 .i32)⟩,
     ⟨S100000, (iotaInDim S100000 32 0 : Arr F S100000 .i32)⟩] concatenates_S1600000_S100000_S1700000_d0

/-- Each node's degree: a 1 added at the target of every edge, from zeros. -/
def degOf (col : Arr F S1700000 .i32) : Arr F S100000 .f32 :=
  Host.scatterAdd scatter_S100000_S1700000x1_S1700000_n_0_0_1
    (broadcastInDim S100000 ![] bcast_S_S100000 (constant (F := F) S_ .f32 0x00000000#32) : Arr F S100000 .f32)
    (broadcastInDim S1700000x1 ![0] bcast_S1700000_S1700000x1_0 col : Arr F S1700000x1 .i32)
    (broadcastInDim S1700000 ![] bcast_S_S1700000 (constant (F := F) S_ .f32 0x3F800000#32) : Arr F S1700000 .f32)

/-- degree^(-1/2) where the degree is positive, 0 elsewhere. -/
def dinvOf (col : Arr F S1700000 .i32) : Arr F S100000 .f32 :=
  select (cmpf .ogt (degOf (F := F) col) (broadcastInDim S100000 ![] bcast_S_S100000 (constant (F := F) S_ .f32 0x00000000#32) : Arr F S100000 .f32))
    (Host.rsqrt (degOf (F := F) col))
    (broadcastInDim S100000 ![] bcast_S_S100000 (id (constant (F := F) S_ .f32 0x00000000#32)) : Arr F S100000 .f32)

/-- An index read as a node: a negative one has 100000 added; as a column of indices. -/
def nodeIdx (ix : Arr F S1700000 .i32) : Arr F S1700000x1 .i32 :=
  broadcastInDim S1700000x1 ![0] bcast_S1700000_S1700000x1_0
    (select (cmpi .slt ix (broadcastInDim S1700000 ![] bcast_S_S1700000 (constantI S_ 32 0#32) : Arr F S1700000 .i32))
      (addi ix (broadcastInDim S1700000 ![] bcast_S_S1700000 (constantI S_ 32 100000#32) : Arr F S1700000 .i32))
      ix : Arr F S1700000 .i32)

/-- The edges' weights: dinv at the source times dinv at the target. -/
def normOf (row col : Arr F S1700000 .i32) (dinv : Arr F S100000 .f32) : Arr F S1700000 .f32 :=
  mulf (Host.gather gather_S100000_S1700000x1_S1700000_n_0_n_n_0_1_1 dinv (nodeIdx (F := F) row))
    (Host.gather gather_S100000_S1700000x1_S1700000_n_0_n_n_0_1_1 dinv (nodeIdx (F := F) col))

/-- A layer's aggregation of 128 features per node. -/
def aggOf128 (row col : Arr F S1700000 .i32) (norm : Arr F S1700000 .f32) (xw : Arr F S100000x128 .f32) : Arr F S100000x128 .f32 :=
  Host.scatterAdd scatter_S100000x128_S1700000x1_S1700000x128_1_0_0_1
    (broadcastInDim S100000x128 ![] bcast_S_S100000x128 (constant (F := F) S_ .f32 0x00000000#32) : Arr F S100000x128 .f32)
    (broadcastInDim S1700000x1 ![0] bcast_S1700000_S1700000x1_0 col : Arr F S1700000x1 .i32)
    (mulf (Host.gather gather_S100000x128_S1700000x1_S1700000x128_1_0_n_n_0_1_1128 xw (nodeIdx (F := F) row))
      (broadcastInDim S1700000x128 ![0, 1] bcast_S1700000x1_S1700000x128_0_1
        (broadcastInDim S1700000x1 ![0] bcast_S1700000_S1700000x1_0 norm : Arr F S1700000x1 .f32) : Arr F S1700000x128 .f32))

/-- A layer's aggregation of 64 features per node. -/
def aggOf64 (row col : Arr F S1700000 .i32) (norm : Arr F S1700000 .f32) (xw : Arr F S100000x64 .f32) : Arr F S100000x64 .f32 :=
  Host.scatterAdd scatter_S100000x64_S1700000x1_S1700000x64_1_0_0_1
    (broadcastInDim S100000x64 ![] bcast_S_S100000x64 (constant (F := F) S_ .f32 0x00000000#32) : Arr F S100000x64 .f32)
    (broadcastInDim S1700000x1 ![0] bcast_S1700000_S1700000x1_0 col : Arr F S1700000x1 .i32)
    (mulf (Host.gather gather_S100000x64_S1700000x1_S1700000x64_1_0_n_n_0_1_164 xw (nodeIdx (F := F) row))
      (broadcastInDim S1700000x64 ![0, 1] bcast_S1700000x1_S1700000x64_0_1
        (broadcastInDim S1700000x1 ![0] bcast_S1700000_S1700000x1_0 norm : Arr F S1700000x1 .f32) : Arr F S1700000x64 .f32))

end Cert.Graph

end
-- ==== Proof.KernelHost.lean ====
/-
  The kernel program's host operations, read as the graph functions.

  Between its four kernel regions the kernel's @main runs stretches of host operations. Each stretch is read here as a
  function of the buffers it starts from, over an arbitrary valuation `V`: the first three stretches leave the edges'
  source and target nodes and their weights (`Graph.rowOf`, `colOf`, `normOf` of the edge array); the stretch after the
  first matrix product leaves the 128-feature aggregation of that product and the first bias as one row; the stretch
  after the second matrix product the 64-feature aggregation and the second bias as one row. A buffer that a stretch
  does not write keeps its contents.
-/
import proofs.«107062_j30700426232142_1_alg».proof.Proof.Gen.KernelIdeal.Frame
import proofs.«107062_j30700426232142_1_alg».proof.Proof.Graph

set_option maxRecDepth 16384

noncomputable section

namespace Cert.KernelIdeal.HostValue

open Cert.KernelIdeal Cert.KernelIdeal.Gen Cert.KernelIdeal.Facts₀ Cert.KernelIdeal.Facts Cert.Graph
open Idealize.ShloMosaic Idealize.ShloMosaic.TcCoe Idealize.SL.Sem Idealize.ShloMosaic.StableHlo

variable {F : FTy → Type} [FloatOps F]

local notation "dr" => Proc.devRef (τ := τ) (sig := sig) Proc.tc

variable (V : Valuation τ sig (Elt F))

/-! ## The first stretch: the edges' endpoints, the degrees compared with zero and their inverse square roots -/

theorem s0_row : after hostOps0 V (dr main_v3) = rowOf (F := F) (V (dr main_arg1)) := by
  after_results_simp <;> rfl
theorem s0_col : after hostOps0 V (dr main_v6) = colOf (F := F) (V (dr main_arg1)) := by
  after_results_simp <;> rfl
set_option maxHeartbeats 4000000 in
theorem s0_pos : after hostOps0 V (dr main_v12)
    = cmpf .ogt (degOf (F := F) (colOf (F := F) (V (dr main_arg1))))
        (broadcastInDim S100000 ![] Facts₀.bcast_S_S100000 (constant (F := F) S_ .f32 0x00000000#32) : Arr F S100000 .f32) := by
  after_results_simp <;> rfl
set_option maxHeartbeats 4000000 in
theorem s0_rsqrt : after hostOps0 V (dr main_v13) = Host.rsqrt (degOf (F := F) (colOf (F := F) (V (dr main_arg1)))) := by
  after_results_simp <;> rfl
theorem s0_zero : after hostOps0 V (dr main_cst_2) = constant (F := F) S_ .f32 0x00000000#32 := by
  after_results_simp <;> rfl
theorem s0_arg0 : after hostOps0 V (dr main_arg0) = V (dr main_arg0) := by after_results_simp
theorem s0_arg2 : after hostOps0 V (dr main_arg2) = V (dr main_arg2) := by after_results_simp
theorem s0_arg3 : after hostOps0 V (dr main_arg3) = V (dr main_arg3) := by after_results_simp
theorem s0_arg4 : after hostOps0 V (dr main_arg4) = V (dr main_arg4) := by after_results_simp
theorem s0_arg5 : after hostOps0 V (dr main_arg5) = V (dr main_arg5) := by after_results_simp

/-! ## The second stretch: the selection between them -/

theorem s1_dinv : after hostOps0_1 V (dr main_v14)
    = select (V (dr main_v12)) (V (dr main_v13))
        (broadcastInDim S100000 ![] Facts₀.bcast_S_S100000 (id (V (dr main_cst_2))) : Arr F S100000 .f32) := by
  after_results_simp <;> rfl
theorem s1_row : after hostOps0_1 V (dr main_v3) = V (dr main_v3) := by after_results_simp
theorem s1_col : after hostOps0_1 V (dr main_v6) = V (dr main_v6) := by after_results_simp
theorem s1_arg0 : after hostOps0_1 V (dr main_arg0) = V (dr main_arg0) := by after_results_simp
theorem s1_arg2 : after hostOps0_1 V (dr main_arg2) = V (dr main_arg2) := by after_results_simp
theorem s1_arg3 : after hostOps0_1 V (dr main_arg3) = V (dr main_arg3) := by after_results_simp
theorem s1_arg4 : after hostOps0_1 V (dr main_arg4) = V (dr main_arg4) := by after_results_simp
theorem s1_arg5 : after hostOps0_1 V (dr main_arg5) = V (dr main_arg5) := by after_results_simp

/-! ## The third stretch: the edges' weights -/

set_option maxHeartbeats 4000000 in
theorem s2_norm : after hostOps0_2 V (dr main_v29)
    = normOf (F := F) (V (dr main_v3)) (V (dr main_v6)) (V (dr main_v14)) := by
  after_results_simp <;> rfl
theorem s2_row : after hostOps0_2 V (dr main_v3) = V (dr main_v3) := by after_results_simp
theorem s2_col : after hostOps0_2 V (dr main_v6) = V (dr main_v6) := by after_results_simp
theorem s2_arg0 : after hostOps0_2 V (dr main_arg0) = V (dr main_arg0) := by after_results_simp
theorem s2_arg2 : after hostOps0_2 V (dr main_arg2) = V (dr main_arg2) := by after_results_simp
theorem s2_arg3 : after hostOps0_2 V (dr main_arg3) = V (dr main_arg3) := by after_results_simp
theorem s2_arg4 : after hostOps0_2 V (dr main_arg4) = V (dr main_arg4) := by after_results_simp
theorem s2_arg5 : after hostOps0_2 V (dr main_arg5) = V (dr main_arg5) := by after_results_simp

/-! ## The stretch after the first product: the first aggregation, and the first bias as a row -/

set_option maxHeartbeats 4000000 in
theorem s3_agg : after hostOps1 V (dr main_v43)
    = aggOf128 (F := F) (V (dr main_v3)) (V (dr main_v6)) (V (dr main_v29)) (V (dr main_v30)) := by
  after_results_simp <;> rfl
theorem s3_bias : after hostOps1 V (dr main_v44)
    = (shapeCast S1x128 (V (dr main_arg3)) Facts₀.shapeCasts_S128_S1x128 : Arr F S1x128 .f32) := by
  after_results_simp <;> rfl
theorem s3_row : after hostOps1 V (dr main_v3) = V (dr main_v3) := by after_results_simp
theorem s3_col : after hostOps1 V (dr main_v6) = V (dr main_v6) := by after_results_simp
theorem s3_norm : after hostOps1 V (dr main_v29) = V (dr main_v29) := by after_results_simp
theorem s3_arg4 : after hostOps1 V (dr main_arg4) = V (dr main_arg4) := by after_results_simp
theorem s3_arg5 : after hostOps1 V (dr main_arg5) = V (dr main_arg5) := by after_results_simp

/-! ## The stretch after the second product: the second aggregation, and the second bias as a row -/

set_option maxHeartbeats 4000000 in
theorem s4_agg : after hostOps3 V (dr main_v59)
    = aggOf64 (F := F) (V (dr main_v3)) (V (dr main_v6)) (V (dr main_v29)) (V (dr main_v46)) := by
  after_results_simp <;> rfl
theorem s4_bias : after hostOps3 V (dr main_v60)
    = (shapeCast S1x64 (V (dr main_arg5)) Facts₀.shapeCasts_S64_S1x64 : Arr F S1x64 .f32) := by
  after_results_simp <;> rfl

end Cert.KernelIdeal.HostValue

end
-- ==== Proof.Network.lean ====
/-
  The two-layer network as one whole-array function of the six arguments.

  A layer multiplies the node features by a weight matrix, aggregates the product over the graph (`Graph.aggOf…` with
  the edges' weights `normOf`), and adds a bias to every row; the first layer then takes the maximum with zero. The
  result is `gcnOut x e w1 b1 w2 b2`: the second layer applied to the first layer's result.

  The dense steps are spelt as host operations on whole arrays: the product as a `dot_general` contracting the
  features, the bias as the vector laid out as one row and that row repeated over the 100000 rows.
-/
import proofs.«107062_j30700426232142_1_alg».proof.Proof.Gen.KernelIdeal
import proofs.«107062_j30700426232142_1_alg».proof.Proof.Gen.ReferenceIdeal
import proofs.«107062_j30700426232142_1_alg».proof.Proof.Graph

noncomputable section

namespace Cert.Graph

open Cert.KernelIdeal Idealize.ShloMosaic

variable {F : FTy → Type} [FloatOps F]

/-- Node features times the first weight matrix. -/
def mm1 (x : Arr F S100000x128 .f32) (w : Arr F S128x128 .f32) : Arr F S100000x128 .f32 :=
  Host.dotGeneral Cert.ReferenceIdeal.dot_S100000x128_S128x128_S100000x128_1_0_0_1_n_n none x w

/-- Hidden features times the second weight matrix. -/
def mm2 (x : Arr F S100000x128 .f32) (w : Arr F S128x64 .f32) : Arr F S100000x64 .f32 :=
  Host.dotGeneral Cert.ReferenceIdeal.dot_S100000x128_S128x64_S100000x64_1_0_0_1_n_n none x w

/-- A 128-vector as one row. -/
def rowOf128 (b : Arr F S128 .f32) : Arr F S1x128 .f32 :=
  broadcastInDim S1x128 ![1] Cert.ReferenceIdeal.Facts₀.bcast_S128_S1x128_1 b

/-- A 64-vector as one row. -/
def rowOf64 (b : Arr F S64 .f32) : Arr F S1x64 .f32 :=
  broadcastInDim S1x64 ![1] Cert.ReferenceIdeal.Facts₀.bcast_S64_S1x64_1 b

/-- The bias row added to every row, then the maximum with zero. -/
def biasRelu128 (agg : Arr F S100000x128 .f32) (brow : Arr F S1x128 .f32) : Arr F S100000x128 .f32 :=
  maximumf (addf agg (broadcastInDim S100000x128 ![0, 1] Cert.ReferenceIdeal.Facts₀.bcast_S1x128_S100000x128_0_1 brow : Arr F S100000x128 .f32))
    (broadcastInDim S100000x128 ![] Cert.ReferenceIdeal.Facts₀.bcast_S_S100000x128 (constant (F := F) S_ .f32 0x00000000#32) : Arr F S100000x128 .f32)

/-- The bias row added to every row. -/
def bias64 (agg : Arr F S100000x64 .f32) (brow : Arr F S1x64 .f32) : Arr F S100000x64 .f32 :=
  addf agg (broadcastInDim S100000x64 ![0, 1] Cert.ReferenceIdeal.Facts₀.bcast_S1x64_S100000x64_0_1 brow : Arr F S100000x64 .f32)

/-- The edges' weights, from the edge array. -/
def weightsOf (e : Arr F S2x1600000 .i32) : Arr F S1700000 .f32 :=
  normOf (F := F) (rowOf (F := F) e) (colOf (F := F) e) (dinvOf (F := F) (colOf (F := F) e))

/-- The first layer: 128 hidden features per node. -/
def hiddenOf (x : Arr F S100000x128 .f32) (e : Arr F S2x1600000 .i32) (w1 : Arr F S128x128 .f32) (b1 : Arr F S128 .f32) :
    Arr F S100000x128 .f32 :=
  biasRelu128 (F := F) (aggOf128 (F := F) (rowOf (F := F) e) (colOf (F := F) e) (weightsOf (F := F) e) (mm1 (F := F) x w1)) (rowOf128 (F := F) b1)

/-- The network's result: 64 features per node. -/
def gcnOut (x : Arr F S100000x128 .f32) (e : Arr F S2x1600000 .i32) (w1 : Arr F S128x128 .f32) (b1 : Arr F S128 .f32)
    (w2 : Arr F S128x64 .f32) (b2 : Arr F S64 .f32) : Arr F S100000x64 .f32 :=
  bias64 (F := F) (aggOf64 (F := F) (rowOf (F := F) e) (colOf (F := F) e) (weightsOf (F := F) e)
    (mm2 (F := F) (hiddenOf (F := F) x e w1 b1) w2)) (rowOf64 (F := F) b2)

end Cert.Graph

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibRowBlockProduct.lean ====
/-
  A block of rows of a matrix product is the product of that block of rows.

  Let A be an M × k matrix, B a k × n matrix, and X an mb × k matrix whose row p is row r of A. Then the product
  X · B accumulated into zero has, at entry (p, q), the value of the whole product A · B at entry (r, q): both are
  the sum over the k contracted coordinates c of A(r, c) · B(c, q). The left side is the matrix unit's product
  started from an accumulator of zeros; the right side is the host's `dot_general`. Only the two rows have to agree,
  entry by entry; nothing is asked of the other rows, and no entry has to be finite (a finite sum of products on the
  extended reals is a function of its terms).
-/
import proofs.«107062_j30700426232142_1_alg».proof.Proof.LibPlainMatmul
import proofs.«107062_j30700426232142_1_alg».proof.Proof.LibPlainDotGeneral

open scoped BigOperators

namespace Idealize.ShloMosaic.ValueIdx

open Idealize.ShloMosaic

/-- Row `p` of the block product `X · Y` (into zero) is row `r` of the whole product `A · B`, when row `p` of `X` is
    row `r` of `A` and column `q` of `Y` is column `q` of `B`. -/
theorem matmul_rowblock_apply {M mb k n : ℕ} {φ₁ φ₂ ψ₁ ψ₂ : FTy}
    (wb : DotDims.WF ⟨2, ![mb, k]⟩ ⟨2, ![k, n]⟩ ⟨2, ![mb, n]⟩ [1] [0] [0] [1] [] [])
    (wa : DotDims.WF ⟨2, ![M, k]⟩ ⟨2, ![k, n]⟩ ⟨2, ![M, n]⟩ [1] [0] [0] [1] [] [])
    (prec prec' : Option ContractPrecision)
    (A : FVec Ideal ⟨2, ![M, k]⟩ ψ₁) (B : FVec Ideal ⟨2, ![k, n]⟩ ψ₂)
    (X : FVec Ideal ⟨2, ![mb, k]⟩ φ₁) (Y : FVec Ideal ⟨2, ![k, n]⟩ φ₂)
    (p : Fin mb) (q : Fin n) (r : Fin M)
    (hX : ∀ c : Fin k, X (ix2 p c) = A (ix2 r c)) (hY : ∀ c : Fin k, Y (ix2 c q) = B (ix2 c q)) :
    matmul (⟨[1], [0], [0], [1], [], [], wb⟩ : DotDims ⟨2, ![mb, k]⟩ ⟨2, ![k, n]⟩ ⟨2, ![mb, n]⟩) prec X Y
        (constant (F := Ideal) ⟨2, ![mb, n]⟩ .f32 0x00000000#32) (ix2 p q)
      = Host.dotGeneral (⟨[1], [0], [0], [1], [], [], wa⟩ : DotDims ⟨2, ![M, k]⟩ ⟨2, ![k, n]⟩ ⟨2, ![M, n]⟩) prec' A B (ix2 r q) := by
  rw [matmul_plain_zero_apply wb prec X Y p q, dotGeneral_plain_apply wa prec' A B r q]
  exact Finset.sum_congr rfl fun c _ => by rw [hX c, hY c]

end Idealize.ShloMosaic.ValueIdx
-- ==== Proof.Region0.lean ====
/-
  The first kernel region: node features times the first weight matrix, twenty blocks of 5000 rows.

  At grid point `t` the body multiplies rows 5000·t … 5000·t + 4999 of the feature array by the whole weight matrix, from an
  accumulator of zeros, and the pipeline writes the product back as the same rows of the result. Row `r` of a product
  depends on row `r` of the left operand only, so the twenty blocks are the twenty block rows of the one whole product,
  and they tile the result array.
-/
import proofs.«107062_j30700426232142_1_alg».proof.Proof.Gen.KernelIdeal.Frame
import proofs.«107062_j30700426232142_1_alg».proof.Proof.Network
import proofs.«107062_j30700426232142_1_alg».proof.Proof.LibRowBlockProduct
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Graph
open Idealize.ShloMosaic Idealize.ShloMosaic.TcCoe Idealize.ShloMosaic.ValueIdx Idealize.SL.Sem
open Idealize.ShloMosaic.Pipeline (Dat)

theorem zeros2 : (![0, 0] : Fin 2 → Nat) = fun _ => 0 := funext fun a => by fin_cases a <;> rfl

/-- The body's stored value at an entry, over plain arrays: if row `p` of the left block is row `r` of the whole left
    matrix and the right block is the whole right matrix on column `q`, the entry `(p, q)` of the block product is the
    entry `(r, q)` of the whole product. The casts to the narrower float format are the identity on the extended reals. -/
theorem stored_apply (A : Arr Ideal S100000x128 .f32) (B : Arr Ideal S128x128 .f32)
    (x0 : Vec Ideal S5000x128 .f32) (x1 : Vec Ideal S128x128 .f32) (p : Fin 5000) (q : Fin 128) (r : Fin 100000)
    (h0 : ∀ k : Fin 128, x0 (ix2 p k) = A (ix2 r k)) (h1 : ∀ k : Fin 128, x1 (ix2 k q) = B (ix2 k q)) :
    k0_pay1 (F := Ideal) x0 x1 (ix2 p q) = mm1 (F := Ideal) A B (ix2 r q) := by
  unfold k0_pay1 mm1
  dsimp only
  exact matmul_rowblock_apply Facts₀.dot_S5000x128_S128x128_S5000x128_1_0_0_1_n_n_wf Cert.ReferenceIdeal.Facts₀.dot_S100000x128_S128x128_S100000x128_1_0_0_1_n_n_wf
    none none A B _ _ p q r h0 h1

/-- The same at indices given by their coordinates' values. -/
theorem stored_at (A : Arr Ideal S100000x128 .f32) (B : Arr Ideal S128x128 .f32)
    (x0 : Vec Ideal S5000x128 .f32) (x1 : Vec Ideal S128x128 .f32) (y : S5000x128.Idx) (i : S100000x128.Idx)
    (hq : (i 1).val = (y 1).val)
    (h0 : ∀ (u : S5000x128.Idx) (v : S100000x128.Idx), (u 0).val = (y 0).val → (v 0).val = (i 0).val → (v 1).val = (u 1).val → x0 u = A v)
    (h1 : ∀ (u : S128x128.Idx), x1 u = B u) :
    k0_pay1 (F := Ideal) x0 x1 y = mm1 (F := Ideal) A B i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hq
  subst hs
  exact stored_apply A B x0 x1 p s r (fun k => h0 (ix2 p k) (ix2 r k) rfl rfl rfl) (fun k => h1 (ix2 k s))

/-- The printed index maps over the grid: the left operand's and the result's blocks are block row `t`, the right
    operand's block is the whole matrix. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem index_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- What point `t` writes back is block row `t` of the whole product of the two arrays as the region finds them. -/
theorem flushed_eq (c : Dev nD) (t : Fin cfg0.N) :
    (dat0 (F := Ideal) V c).flushed 2 t
      = ((cfg0.win 2).blk t).view.read (Elt Ideal) (mm1 (F := Ideal) (V c main_arg0) (V c main_arg2)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e00, e01, e10, e11, e20, e21⟩ := index_maps t
  funext j
  show k0_pay1 (iblk0 V c 0 t) (iblk0 V c 1 t) j = mm1 (V c main_arg0) (V c main_arg2) (((cfg0.win 2).blk t).view.emb j)
  have o0 : ((((cfg0.win 2).blk t).view.emb j) 0).val = win0_2.index t (0 : Fin 2) * 5000 + 1 * (j 0).val := rfl
  have o1 : ((((cfg0.win 2).blk t).view.emb j) 1).val = win0_2.index t (1 : Fin 2) * 128 + 1 * (j 1).val := rfl
  refine stored_at (V c main_arg0) (V c main_arg2) (iblk0 V c 0 t) (iblk0 V c 1 t) j _ (by rw [o1, e21]; omega) ?_ ?_
  · intro u v hu hv huv
    show V c main_arg0 (((cfg0.win 0).blk t).view.emb u) = V c main_arg0 v
    refine congrArg (V c main_arg0) (funext fun a => Fin.ext ?_)
    match a with
    | ⟨0, _⟩ =>
      show win0_0.index t (0 : Fin 2) * 5000 + 1 * (u 0).val = (v 0).val
      rw [hv, o0, e00, e20, hu]
    | ⟨1, _⟩ =>
      show win0_0.index t (1 : Fin 2) * 128 + 1 * (u 1).val = (v 1).val
      rw [huv, e01]; omega
  · intro u
    show V c main_arg2 (((cfg0.win 1).blk t).view.emb u) = V c main_arg2 u
    refine congrArg (V c main_arg2) (funext fun a => Fin.ext ?_)
    match a with
    | ⟨0, _⟩ =>
      show win0_1.index t (0 : Fin 2) * 128 + 1 * (u 0).val = (u 0).val
      rw [e10]; omega
    | ⟨1, _⟩ =>
      show win0_1.index t (1 : Fin 2) * 128 + 1 * (u 1).val = (u 1).val
      rw [e11]; omega

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty blocks of 5000 rows tile the 100000 rows: row `r` is in block `r / 5000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is the whole product of the two arrays as the region finds them. -/
theorem final (c : Dev nD) :
    (dat0 (F := Ideal) V c).arrAt 2 cfg0.N = mm1 (F := Ideal) (V c main_arg0) (V c main_arg2) :=
  (dat0 (F := Ideal) V c).arrAt_eq_of_cover 2 _ (fun t _ => flushed_eq V c t) covered

end Cert.KernelIdeal.Region0

end
-- ==== Proof.Region1.lean ====
/-
  The second kernel region: the first bias and the maximum with zero, twenty blocks of 5000 rows.

  At grid point `t` the body adds the bias row to each of the rows 5000·t … 5000·t + 4999 of the aggregated array and takes
  the maximum with zero, entry by entry; the pipeline writes the block back as the same rows of the result. Each entry
  depends on the same entry of the aggregated array and on the bias row's entry on its column, so the twenty blocks are
  the block rows of one whole-array function, and they tile the result array.
-/
import proofs.«107062_j30700426232142_1_alg».proof.Proof.Gen.KernelIdeal.Frame
import proofs.«107062_j30700426232142_1_alg».proof.Proof.Network
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.Graph
open Idealize.ShloMosaic Idealize.ShloMosaic.TcCoe Idealize.ShloMosaic.ValueIdx Idealize.SL.Sem
open Idealize.ShloMosaic.Pipeline (Dat)

variable {F : FTy → Type} [FloatOps F]

theorem zeros2 : (![0, 0] : Fin 2 → Nat) = fun _ => 0 := funext fun a => by fin_cases a <;> rfl

/-- The body's stored value at an entry, over plain arrays: the block's entry plus the bias row's entry on that
    column, then the maximum with zero, is the whole-array function at the entry the block's entry comes from. -/
theorem stored_apply (agg : Arr F S100000x128 .f32) (brow : Arr F S1x128 .f32)
    (x0 : Vec F S5000x128 .f32) (x1 : Vec F S1x128 .f32) (p : Fin 5000) (q : Fin 128) (r : Fin 100000)
    (h0 : x0 (ix2 p q) = agg (ix2 r q)) (h1 : x1 (ix2 (0 : Fin 1) q) = brow (ix2 (0 : Fin 1) q)) :
    k1_pay1 (F := F) x0 x1 (ix2 p q) = biasRelu128 (F := F) agg brow (ix2 r q) := by
  unfold k1_pay1 biasRelu128
  dsimp only
  rw [shapeCast_self, shapeCast_self]
  refine congrArg₂ FloatOps.maximumf (congrArg₂ FloatOps.addf h0 ?_) ?_
  · exact (broadcastTo_1b_ab_apply x1 _ p q).trans (h1.trans
      (broadcastInDim_apply _ _ brow (ix2 r q) (ix2 (0 : Fin 1) q) (fun a => match a with
        | ⟨0, _⟩ => by show (0 : Nat) = if (1 : Nat) = 1 then 0 else r.val; rw [if_pos rfl]
        | ⟨1, _⟩ => by show q.val = if (128 : Nat) = 1 then 0 else q.val; rw [if_neg (by decide)])).symm)
  · exact ((broadcastInDim_apply _ _ (constant (F := F) S_ .f32 0x00000000#32) (ix2 r q) (fun a => a.elim0) (fun a => a.elim0)).trans rfl).symm

/-- The same at indices given by their coordinates' values. -/
theorem stored_at (agg : Arr F S100000x128 .f32) (brow : Arr F S1x128 .f32)
    (x0 : Vec F S5000x128 .f32) (x1 : Vec F S1x128 .f32) (y : S5000x128.Idx) (i : S100000x128.Idx)
    (hq : (i 1).val = (y 1).val) (h0 : x0 y = agg i) (h1 : ∀ u : S1x128.Idx, x1 u = brow u) :
    k1_pay1 (F := F) x0 x1 y = biasRelu128 (F := F) agg brow i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hq
  subst hs
  exact stored_apply agg brow x0 x1 p s r h0 (h1 _)

/-- The printed index maps over the grid: the aggregated array's and the result's blocks are block row `t`, the bias
    row's block is the whole row. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row is some point's. -/
theorem index_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt F) ((c : Thread nD τ).loc b))

/-- What point `t` writes back is block row `t` of the whole-array function of the two arrays as the region finds them. -/
theorem flushed_eq (c : Dev nD) (t : Fin cfg1.N) :
    (dat1 (F := F) V c).flushed 2 t
      = ((cfg1.win 2).blk t).view.read (Elt F) (biasRelu128 (F := F) (V c main_v43) (V c main_v44)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  obtain ⟨e00, e01, e10, e11, e20, e21⟩ := index_maps t
  funext j
  show k1_pay1 (iblk1 V c 0 t) (iblk1 V c 1 t) j = biasRelu128 (V c main_v43) (V c main_v44) (((cfg1.win 2).blk t).view.emb j)
  have o1 : ((((cfg1.win 2).blk t).view.emb j) 1).val = win1_2.index t (1 : Fin 2) * 128 + 1 * (j 1).val := rfl
  refine stored_at (V c main_v43) (V c main_v44) (iblk1 V c 0 t) (iblk1 V c 1 t) j _ (by rw [o1, e21]; omega) ?_ ?_
  · show V c main_v43 (((cfg1.win 0).blk t).view.emb j) = V c main_v43 (((cfg1.win 2).blk t).view.emb j)
    refine congrArg (V c main_v43) (funext fun a => Fin.ext ?_)
    match a with
    | ⟨0, _⟩ =>
      show win1_0.index t (0 : Fin 2) * 5000 + 1 * (j 0).val = win1_2.index t (0 : Fin 2) * 5000 + 1 * (j 0).val
      rw [e00, e20]
    | ⟨1, _⟩ =>
      show win1_0.index t (1 : Fin 2) * 128 + 1 * (j 1).val = win1_2.index t (1 : Fin 2) * 128 + 1 * (j 1).val
      rw [e01, e21]
  · intro u
    show V c main_v44 (((cfg1.win 1).blk t).view.emb u) = V c main_v44 u
    refine congrArg (V c main_v44) (funext fun a => Fin.ext ?_)
    match a with
    | ⟨0, _⟩ =>
      show win1_1.index t (0 : Fin 2) * 1 + 1 * (u 0).val = (u 0).val
      rw [e10]; omega
    | ⟨1, _⟩ =>
      show win1_1.index t (1 : Fin 2) * 128 + 1 * (u 1).val = (u 1).val
      rw [e11]; omega

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The twenty blocks of 5000 rows tile the 100000 rows: row `r` is in block `r / 5000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region is the whole-array function of the two arrays as the region finds them. -/
theorem final (c : Dev nD) :
    (dat1 (F := F) V c).arrAt 2 cfg1.N = biasRelu128 (F := F) (V c main_v43) (V c main_v44) :=
  (dat1 (F := F) V c).arrAt_eq_of_cover 2 _ (fun t _ => flushed_eq V c t) covered

end Cert.KernelIdeal.Region1

end
-- ==== Proof.Region2.lean ====
/-
  The third kernel region: hidden features times the second weight matrix, twenty blocks of 5000 rows.

  At grid point `t` the body multiplies rows 5000·t … 5000·t + 4999 of the hidden features by the whole weight matrix, from an
  accumulator of zeros, and the pipeline writes the product back as the same rows of the result. Row `r` of a product
  depends on row `r` of the left operand only, so the twenty blocks are the twenty block rows of the one whole product,
  and they tile the result array.
-/
import proofs.«107062_j30700426232142_1_alg».proof.Proof.Gen.KernelIdeal.Frame
import proofs.«107062_j30700426232142_1_alg».proof.Proof.Network
import proofs.«107062_j30700426232142_1_alg».proof.Proof.LibRowBlockProduct
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Graph
open Idealize.ShloMosaic Idealize.ShloMosaic.TcCoe Idealize.ShloMosaic.ValueIdx Idealize.SL.Sem
open Idealize.ShloMosaic.Pipeline (Dat)

theorem zeros2 : (![0, 0] : Fin 2 → Nat) = fun _ => 0 := funext fun a => by fin_cases a <;> rfl

/-- The body's stored value at an entry, over plain arrays: if row `p` of the left block is row `r` of the whole left
    matrix and the right block is the whole right matrix on column `q`, the entry `(p, q)` of the block product is the
    entry `(r, q)` of the whole product. The casts to the narrower float format are the identity on the extended reals. -/
theorem stored_apply (A : Arr Ideal S100000x128 .f32) (B : Arr Ideal S128x64 .f32)
    (x0 : Vec Ideal S5000x128 .f32) (x1 : Vec Ideal S128x64 .f32) (p : Fin 5000) (q : Fin 64) (r : Fin 100000)
    (h0 : ∀ k : Fin 128, x0 (ix2 p k) = A (ix2 r k)) (h1 : ∀ k : Fin 128, x1 (ix2 k q) = B (ix2 k q)) :
    k2_pay1 (F := Ideal) x0 x1 (ix2 p q) = mm2 (F := Ideal) A B (ix2 r q) := by
  unfold k2_pay1 mm2
  dsimp only
  rw [shapeCast_self]
  exact matmul_rowblock_apply Facts₀.dot_S5000x128_S128x64_S5000x64_1_0_0_1_n_n_wf Cert.ReferenceIdeal.Facts₀.dot_S100000x128_S128x64_S100000x64_1_0_0_1_n_n_wf
    none none A B _ _ p q r h0 h1

/-- The same at indices given by their coordinates' values. -/
theorem stored_at (A : Arr Ideal S100000x128 .f32) (B : Arr Ideal S128x64 .f32)
    (x0 : Vec Ideal S5000x128 .f32) (x1 : Vec Ideal S128x64 .f32) (y : S5000x64.Idx) (i : S100000x64.Idx)
    (hq : (i 1).val = (y 1).val)
    (h0 : ∀ (u : S5000x128.Idx) (v : S100000x128.Idx), (u 0).val = (y 0).val → (v 0).val = (i 0).val → (v 1).val = (u 1).val → x0 u = A v)
    (h1 : ∀ (u : S128x64.Idx), x1 u = B u) :
    k2_pay1 (F := Ideal) x0 x1 y = mm2 (F := Ideal) A B i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hq
  subst hs
  exact stored_apply A B x0 x1 p s r (fun k => h0 (ix2 p k) (ix2 r k) rfl rfl rfl) (fun k => h1 (ix2 k s))

/-- The printed index maps over the grid: the left operand's and the result's blocks are block row `t`, the right
    operand's block is the whole matrix. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row is some point's. -/
theorem index_onto : ∀ q0 : Fin 20, ∃ t : Fin cfg2.N, win2_2.index t = ![q0.val, 0] :=
  (by decide +kernel : ∀ q0 : Fin 20, ∃ t : Fin grid2.N, win2_2.index t = ![q0.val, 0])

variable (V : (c : Dev nD) → (b : Ref sig .tc) → Buf (Elt Ideal) ((c : Thread nD τ).loc b))

/-- What point `t` writes back is block row `t` of the whole product of the two arrays as the region finds them. -/
theorem flushed_eq (c : Dev nD) (t : Fin cfg2.N) :
    (dat2 (F := Ideal) V c).flushed 2 t
      = ((cfg2.win 2).blk t).view.read (Elt Ideal) (mm2 (F := Ideal) (V c main_v45) (V c main_arg4)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x64) zeros2]
  obtain ⟨e00, e01, e10, e11, e20, e21⟩ := index_maps t
  funext j
  show k2_pay1 (iblk2 V c 0 t) (iblk2 V c 1 t) j = mm2 (V c main_v45) (V c main_arg4) (((cfg2.win 2).blk t).view.emb j)
  have o0 : ((((cfg2.win 2).blk t).view.emb j) 0).val = win2_2.index t (0 : Fin 2) * 5000 + 1 * (j 0).val := rfl
  have o1 : ((((cfg2.win 2).blk t).view.emb j) 1).val = win2_2.index t (1 : Fin 2) * 64 + 1 * (j 1).val := rfl
  refine stored_at (V c main_v45) (V c main_arg4) (iblk2 V c 0 t) (iblk2 V c 1 t) j _ (by rw [o1, e21]; omega) ?_ ?_
  · intro u v hu hv huv
    show V c main_v45 (((cfg2.win 0).blk t).view.emb u) = V c main_v45 v
    refine congrArg (V c main_v45) (funext fun a => Fin.ext ?_)
    match a with
    | ⟨0, _⟩ =>
      show win2_0.index t (0 : Fin 2) * 5000 + 1 * (u 0).val = (v 0).val
      rw [hv, o0, e00, e20, hu]
    | ⟨1, _⟩ =>
      show win2_0.index t (1 : Fin 2) * 128 + 1 * (u 1).val = (v 1).val
      rw [huv, e01]; omega
  · intro u
    show V c main_arg4 (((cfg2.win 1).blk t).view.emb u) = V c main_arg4 u
    refine congrArg (V c main_arg4) (funext fun a => Fin.ext ?_)
    match a with
    | ⟨0, _⟩ =>
      show win2_1.index t (0 : Fin 2) * 128 + 1 * (u 0).val = (u 0).val
      rw [e10]; omega
    | ⟨1, _⟩ =>
      show win2_1.index t (1 : Fin 2) * 64 + 1 * (u 1).val = (u 1).val
      rw [e11]; omega

/-- An index of the result array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The twenty blocks of 5000 rows tile the 100000 rows: row `r` is in block `r / 5000`. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region is the whole product of the two arrays as the region finds them. -/
theorem final (c : Dev nD) :
    (dat2 (F := Ideal) V c).arrAt 2 cfg2.N = mm2 (F := Ideal) (V c main_v45) (V c main_arg4) :=
  (dat2 (F := Ideal) V c).arrAt_eq_of_cover 2 _ (fun t _ => flushed_eq V c t) covered

end Cert.KernelIdeal.Region2

end
-- ==== Proof.Region3.lean ====
/-
  The fourth kernel region: the second bias, twenty blocks of 5000 rows.

  At grid point `t` the body adds the bias row to each of the rows 5000·t … 5000·t + 4999 of the aggregated array, entry by
  entry; the pipeline writes the block back as the same rows of the result. Each entry depends on the same entry of the
  aggregated array and on the bias row's entry on its column, so the twenty blocks are the block rows of one whole-array
  function, and they tile the result array.
-/
import proofs.«107062_j30700426232142_1_alg».proof.Proof.Gen.KernelIdeal.Frame
import proofs.«107062_j30700426232142_1_alg».proof.Proof.Network
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Cert.Graph
open Idealize.ShloMosaic Idealize.ShloMosaic.TcCoe Idealize.ShloMosaic.ValueIdx Idealize.SL.Sem
open Idealize.ShloMosaic.Pipeline (Dat)

variable {F : FTy → Type} [FloatOps F]

theorem zeros2 : (![0, 0] : Fin 2 → Nat) = fun _ => 0 := funext fun a => by fin_cases a <;> rfl

/-- The body's stored value at an entry, over plain arrays: the block's entry plus the bias row's entry on that
    column is the whole-array function at the entry the block's entry comes from. -/
theorem stored_apply (agg : Arr F S100000x64 .f32) (brow : Arr F S1x64 .f32)
    (x0 : Vec F S5000x64 .f32) (x1 : Vec F S1x64 .f32) (p : Fin 5000) (q : Fin 64) (r : Fin 100000)
    (h0 : x0 (ix2 p q) = agg (ix2 r q)) (h1 : x1 (ix2 (0 : Fin 1) q) = brow (ix2 (0 : Fin 1) q)) :
    k3_pay1 (F := F) x0 x1 (ix2 p q) = bias64 (F := F) agg brow (ix2 r q) := by
  unfold k3_pay1 bias64
  dsimp only
  rw [shapeCast_self, shapeCast_self]
  refine congrArg₂ FloatOps.addf h0 ?_
  · exact (broadcastTo_1b_ab_apply x1 _ p q).trans (h1.trans
      (broadcastInDim_apply _ _ brow (ix2 r q) (ix2 (0 : Fin 1) q) (fun a => match a with
        | ⟨0, _⟩ => by show (0 : Nat) = if (1 : Nat) = 1 then 0 else r.val; rw [if_pos rfl]
        | ⟨1, _⟩ => by show q.val = if (64 : Nat) = 1 then 0 else q.val; rw [if_neg (by decide)])).symm)

/-- The same at indices given by their coordinates' values. -/
theorem stored_at (agg : Arr F S100000x64 .f32) (brow : Arr F S1x64 .f32)
    (x0 : Vec F S5000x64 .f32) (x1 : Vec F S1x64 .f32) (y : S5000x64.Idx) (i : S100000x64.Idx)
    (hq : (i 1).val = (y 1).val) (h0 : x0 y = agg i) (h1 : ∀ u : S1x64.Idx, x1 u = brow u) :
    k3_pay1 (F := F) x0 x1 y = bias64 (F := F) agg brow i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hq
  subst hs
  exact stored_apply agg brow x0 x1 p s r h0 (h1 _)

/-- The printed index maps over the grid: the aggregated array's and the result's blocks are block row `t`, the bias
    row's block is the whole row. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row is some point's. -/
theorem index_onto : ∀ q0 : Fin 20, ∃ t : Fin cfg3.N, win3_2.index t = ![q0.val, 0] :=
  (by decide +kernel : ∀ q0 : Fin 20, ∃ t : Fin grid3.N, win3_2.index t = ![q0.val, 0])

variable (V : (c : Dev nD) → (b : Ref sig .tc) → Buf (Elt F) ((c : Thread nD τ).loc b))

/-- What point `t` writes back is block row `t` of the whole-array function of the two arrays as the region finds them. -/
theorem flushed_eq (c : Dev nD) (t : Fin cfg3.N) :
    (dat3 (F := F) V c).flushed 2 t
      = ((cfg3.win 2).blk t).view.read (Elt F) (bias64 (F := F) (V c main_v59) (V c main_v60)) := by
  show (cfg3.win 2).cut (grid3.coords t) ((dat3 V c).after 2 t) = _
  rw [after3_2]
  unfold out3_2
  rw [View.canon_unit_zero zeros2]
  simp only [View.ld_unit_zero (S := S5000x64) zeros2, View.ld_unit_zero (S := S1x64) zeros2]
  obtain ⟨e00, e01, e10, e11, e20, e21⟩ := index_maps t
  funext j
  show k3_pay1 (iblk3 V c 0 t) (iblk3 V c 1 t) j = bias64 (V c main_v59) (V c main_v60) (((cfg3.win 2).blk t).view.emb j)
  have o1 : ((((cfg3.win 2).blk t).view.emb j) 1).val = win3_2.index t (1 : Fin 2) * 64 + 1 * (j 1).val := rfl
  refine stored_at (V c main_v59) (V c main_v60) (iblk3 V c 0 t) (iblk3 V c 1 t) j _ (by rw [o1, e21]; omega) ?_ ?_
  · show V c main_v59 (((cfg3.win 0).blk t).view.emb j) = V c main_v59 (((cfg3.win 2).blk t).view.emb j)
    refine congrArg (V c main_v59) (funext fun a => Fin.ext ?_)
    match a with
    | ⟨0, _⟩ =>
      show win3_0.index t (0 : Fin 2) * 5000 + 1 * (j 0).val = win3_2.index t (0 : Fin 2) * 5000 + 1 * (j 0).val
      rw [e00, e20]
    | ⟨1, _⟩ =>
      show win3_0.index t (1 : Fin 2) * 64 + 1 * (j 1).val = win3_2.index t (1 : Fin 2) * 64 + 1 * (j 1).val
      rw [e01, e21]
  · intro u
    show V c main_v60 (((cfg3.win 1).blk t).view.emb u) = V c main_v60 u
    refine congrArg (V c main_v60) (funext fun a => Fin.ext ?_)
    match a with
    | ⟨0, _⟩ =>
      show win3_1.index t (0 : Fin 2) * 1 + 1 * (u 0).val = (u 0).val
      rw [e10]; omega
    | ⟨1, _⟩ =>
      show win3_1.index t (1 : Fin 2) * 64 + 1 * (u 1).val = (u 1).val
      rw [e11]; omega

/-- An index of the result array is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The twenty blocks of 5000 rows tile the 100000 rows: row `r` is in block `r / 5000`. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The result array after the region is the whole-array function of the two arrays as the region finds them. -/
theorem final (c : Dev nD) :
    (dat3 (F := F) V c).arrAt 2 cfg3.N = bias64 (F := F) (V c main_v59) (V c main_v60) :=
  (dat3 (F := F) V c).arrAt_eq_of_cover 2 _ (fun t _ => flushed_eq V c t) covered

end Cert.KernelIdeal.Region3

end
-- ==== Proof.KernelValue.lean ====
/-
  The kernel program's result as the network function.

  The kernel's run passes nine boundaries: three host stretches, the first product's region, a host stretch, the first
  bias region, the second product's region, a host stretch, the second bias region. The buffer contents at each
  boundary are the generated fold `Gen.W1 … Gen.W9`. Here the buffers that matter are followed through the fold: the
  edges' endpoints and weights after the third stretch, kept by every later segment; each region's result array as the
  whole-array function of the arrays it is entered with (`Region0.final … Region3.final`); each aggregation after its
  stretch. At the last boundary the result buffer holds `Graph.gcnOut` of the six arguments.

  The kernel lays a bias out as one row by a reshape, the network function by a broadcast along the new axis: the two
  rows are equal entry by entry.
-/
import proofs.«107062_j30700426232142_1_alg».proof.Proof.KernelHost
import proofs.«107062_j30700426232142_1_alg».proof.Proof.Region0
import proofs.«107062_j30700426232142_1_alg».proof.Proof.Region1
import proofs.«107062_j30700426232142_1_alg».proof.Proof.Region2
import proofs.«107062_j30700426232142_1_alg».proof.Proof.Region3

set_option maxRecDepth 16384

noncomputable section

namespace Cert.KernelIdeal.KernelValue

open Cert.KernelIdeal Cert.KernelIdeal.Gen Cert.KernelIdeal.HostValue Cert.Graph
open Idealize.ShloMosaic Idealize.ShloMosaic.TcCoe Idealize.ShloMosaic.ValueIdx Idealize.SL.Sem Idealize.ShloMosaic.StableHlo

local notation "dr" => Proc.devRef (τ := τ) (sig := sig) Proc.tc

/-- A 128-vector reshaped to one row is the vector broadcast along a new leading axis. -/
theorem row_cast128 {F : FTy → Type} [FloatOps F] (b : Arr F S128 .f32) (h : S128.ShapeCasts S1x128) :
    (shapeCast S1x128 b h : Arr F S1x128 .f32) = rowOf128 (F := F) b := by
  funext j
  obtain ⟨u, i, rfl⟩ : ∃ (u : Fin 1) (i : Fin 128), j = ix2 u i := ⟨j 0, j 1, eq_ix2 j⟩
  rw [shapeCast_a_1a_apply]
  unfold rowOf128
  exact (broadcastInDim_apply _ _ b (ix2 u i) (ix1 i) (fun a => match a with
    | ⟨0, _⟩ => by show i.val = if (128 : Nat) = 1 then 0 else i.val; rw [if_neg (by decide)])).symm

/-- A 64-vector reshaped to one row is the vector broadcast along a new leading axis. -/
theorem row_cast64 {F : FTy → Type} [FloatOps F] (b : Arr F S64 .f32) (h : S64.ShapeCasts S1x64) :
    (shapeCast S1x64 b h : Arr F S1x64 .f32) = rowOf64 (F := F) b := by
  funext j
  obtain ⟨u, i, rfl⟩ : ∃ (u : Fin 1) (i : Fin 64), j = ix2 u i := ⟨j 0, j 1, eq_ix2 j⟩
  rw [shapeCast_a_1a_apply]
  unfold rowOf64
  exact (broadcastInDim_apply _ _ b (ix2 u i) (ix1 i) (fun a => match a with
    | ⟨0, _⟩ => by show i.val = if (64 : Nat) = 1 then 0 else i.val; rw [if_neg (by decide)])).symm

variable (m : (ℓ : Loc nD τ sig) → Buf (Elt Ideal) ℓ) (ρ : Dev nD → PrngReg) (c : Dev nD)

/-! ## After the three first stretches -/

theorem row3 : W3 m ρ c (dr main_v3) = rowOf (F := Ideal) (W0 m ρ c (dr main_arg1)) :=
  (s2_row (W2 m ρ c)).trans ((s1_row (W1 m ρ c)).trans (s0_row (W0 m ρ c)))
theorem col3 : W3 m ρ c (dr main_v6) = colOf (F := Ideal) (W0 m ρ c (dr main_arg1)) :=
  (s2_col (W2 m ρ c)).trans ((s1_col (W1 m ρ c)).trans (s0_col (W0 m ρ c)))
theorem dinv2 : W2 m ρ c (dr main_v14) = dinvOf (F := Ideal) (colOf (F := Ideal) (W0 m ρ c (dr main_arg1))) := by
  refine (s1_dinv (W1 m ρ c)).trans ?_
  rw [show W1 m ρ c (dr main_v12) = _ from s0_pos (W0 m ρ c), show W1 m ρ c (dr main_v13) = _ from s0_rsqrt (W0 m ρ c),
    show W1 m ρ c (dr main_cst_2) = _ from s0_zero (W0 m ρ c)]
  rfl
theorem norm3 : W3 m ρ c (dr main_v29) = weightsOf (F := Ideal) (W0 m ρ c (dr main_arg1)) := by
  refine (s2_norm (W2 m ρ c)).trans ?_
  rw [show W2 m ρ c (dr main_v3) = _ from (s1_row (W1 m ρ c)).trans (s0_row (W0 m ρ c)),
    show W2 m ρ c (dr main_v6) = _ from (s1_col (W1 m ρ c)).trans (s0_col (W0 m ρ c)), dinv2 m ρ c]
  rfl
theorem arg0_3 : W3 m ρ c (dr main_arg0) = W0 m ρ c (dr main_arg0) :=
  (s2_arg0 (W2 m ρ c)).trans ((s1_arg0 (W1 m ρ c)).trans (s0_arg0 (W0 m ρ c)))
theorem arg2_3 : W3 m ρ c (dr main_arg2) = W0 m ρ c (dr main_arg2) :=
  (s2_arg2 (W2 m ρ c)).trans ((s1_arg2 (W1 m ρ c)).trans (s0_arg2 (W0 m ρ c)))
theorem arg3_3 : W3 m ρ c (dr main_arg3) = W0 m ρ c (dr main_arg3) :=
  (s2_arg3 (W2 m ρ c)).trans ((s1_arg3 (W1 m ρ c)).trans (s0_arg3 (W0 m ρ c)))
theorem arg4_3 : W3 m ρ c (dr main_arg4) = W0 m ρ c (dr main_arg4) :=
  (s2_arg4 (W2 m ρ c)).trans ((s1_arg4 (W1 m ρ c)).trans (s0_arg4 (W0 m ρ c)))
theorem arg5_3 : W3 m ρ c (dr main_arg5) = W0 m ρ c (dr main_arg5) :=
  (s2_arg5 (W2 m ρ c)).trans ((s1_arg5 (W1 m ρ c)).trans (s0_arg5 (W0 m ρ c)))

/-! ## After the first product's region -/

theorem prod4 : W4 m ρ c (dr main_v30)
    = mm1 (F := Ideal) (W0 m ρ c (dr main_arg0)) (W0 m ρ c (dr main_arg2)) := by
  have h : W4 m ρ c (dr main_v30) = mm1 (F := Ideal) (W3 m ρ c (dr main_arg0)) (W3 m ρ c (dr main_arg2)) :=
    (W4_arr m ρ c 2).trans (Region0.final (V3 m ρ) c)
  rw [h, arg0_3, arg2_3]
theorem row4 : W4 m ρ c (dr main_v3) = rowOf (F := Ideal) (W0 m ρ c (dr main_arg1)) :=
  (W4_of_ne m ρ c main_v3 (by decide)).trans (row3 m ρ c)
theorem col4 : W4 m ρ c (dr main_v6) = colOf (F := Ideal) (W0 m ρ c (dr main_arg1)) :=
  (W4_of_ne m ρ c main_v6 (by decide)).trans (col3 m ρ c)
theorem norm4 : W4 m ρ c (dr main_v29) = weightsOf (F := Ideal) (W0 m ρ c (dr main_arg1)) :=
  (W4_of_ne m ρ c main_v29 (by decide)).trans (norm3 m ρ c)
theorem arg3_4 : W4 m ρ c (dr main_arg3) = W0 m ρ c (dr main_arg3) :=
  (W4_of_ne m ρ c main_arg3 (by decide)).trans (arg3_3 m ρ c)
theorem arg4_4 : W4 m ρ c (dr main_arg4) = W0 m ρ c (dr main_arg4) :=
  (W4_of_ne m ρ c main_arg4 (by decide)).trans (arg4_3 m ρ c)
theorem arg5_4 : W4 m ρ c (dr main_arg5) = W0 m ρ c (dr main_arg5) :=
  (W4_of_ne m ρ c main_arg5 (by decide)).trans (arg5_3 m ρ c)

/-! ## After the first aggregation's stretch -/

theorem agg5 : W5 m ρ c (dr main_v43)
    = aggOf128 (F := Ideal) (rowOf (F := Ideal) (W0 m ρ c (dr main_arg1))) (colOf (F := Ideal) (W0 m ρ c (dr main_arg1)))
        (weightsOf (F := Ideal) (W0 m ρ c (dr main_arg1))) (mm1 (F := Ideal) (W0 m ρ c (dr main_arg0)) (W0 m ρ c (dr main_arg2))) := by
  refine (s3_agg (W4 m ρ c)).trans ?_
  rw [row4, col4, norm4, prod4]
theorem bias5 : W5 m ρ c (dr main_v44) = rowOf128 (F := Ideal) (W0 m ρ c (dr main_arg3)) := by
  refine (s3_bias (W4 m ρ c)).trans ?_
  rw [arg3_4]
  exact row_cast128 _ _
theorem row5 : W5 m ρ c (dr main_v3) = rowOf (F := Ideal) (W0 m ρ c (dr main_arg1)) :=
  (s3_row (W4 m ρ c)).trans (row4 m ρ c)
theorem col5 : W5 m ρ c (dr main_v6) = colOf (F := Ideal) (W0 m ρ c (dr main_arg1)) :=
  (s3_col (W4 m ρ c)).trans (col4 m ρ c)
theorem norm5 : W5 m ρ c (dr main_v29) = weightsOf (F := Ideal) (W0 m ρ c (dr main_arg1)) :=
  (s3_norm (W4 m ρ c)).trans (norm4 m ρ c)
theorem arg4_5 : W5 m ρ c (dr main_arg4) = W0 m ρ c (dr main_arg4) :=
  (s3_arg4 (W4 m ρ c)).trans (arg4_4 m ρ c)
theorem arg5_5 : W5 m ρ c (dr main_arg5) = W0 m ρ c (dr main_arg5) :=
  (s3_arg5 (W4 m ρ c)).trans (arg5_4 m ρ c)

/-! ## After the first bias region: the hidden features -/

theorem hidden6 : W6 m ρ c (dr main_v45)
    = hiddenOf (F := Ideal) (W0 m ρ c (dr main_arg0)) (W0 m ρ c (dr main_arg1)) (W0 m ρ c (dr main_arg2)) (W0 m ρ c (dr main_arg3)) := by
  have h : W6 m ρ c (dr main_v45) = biasRelu128 (F := Ideal) (W5 m ρ c (dr main_v43)) (W5 m ρ c (dr main_v44)) :=
    (W6_arr m ρ c 2).trans (Region1.final (V5 m ρ) c)
  rw [h, agg5, bias5]
  rfl
theorem row6 : W6 m ρ c (dr main_v3) = rowOf (F := Ideal) (W0 m ρ c (dr main_arg1)) :=
  (W6_of_ne m ρ c main_v3 (by decide)).trans (row5 m ρ c)
theorem col6 : W6 m ρ c (dr main_v6) = colOf (F := Ideal) (W0 m ρ c (dr main_arg1)) :=
  (W6_of_ne m ρ c main_v6 (by decide)).trans (col5 m ρ c)
theorem norm6 : W6 m ρ c (dr main_v29) = weightsOf (F := Ideal) (W0 m ρ c (dr main_arg1)) :=
  (W6_of_ne m ρ c main_v29 (by decide)).trans (norm5 m ρ c)
theorem arg4_6 : W6 m ρ c (dr main_arg4) = W0 m ρ c (dr main_arg4) :=
  (W6_of_ne m ρ c main_arg4 (by decide)).trans (arg4_5 m ρ c)
theorem arg5_6 : W6 m ρ c (dr main_arg5) = W0 m ρ c (dr main_arg5) :=
  (W6_of_ne m ρ c main_arg5 (by decide)).trans (arg5_5 m ρ c)

/-! ## After the second product's region -/

theorem prod7 : W7 m ρ c (dr main_v46)
    = mm2 (F := Ideal) (hiddenOf (F := Ideal) (W0 m ρ c (dr main_arg0)) (W0 m ρ c (dr main_arg1)) (W0 m ρ c (dr main_arg2)) (W0 m ρ c (dr main_arg3)))
        (W0 m ρ c (dr main_arg4)) := by
  have h : W7 m ρ c (dr main_v46) = mm2 (F := Ideal) (W6 m ρ c (dr main_v45)) (W6 m ρ c (dr main_arg4)) :=
    (W7_arr m ρ c 2).trans (Region2.final (V6 m ρ) c)
  rw [h, hidden6, arg4_6]
theorem row7 : W7 m ρ c (dr main_v3) = rowOf (F := Ideal) (W0 m ρ c (dr main_arg1)) :=
  (W7_of_ne m ρ c main_v3 (by decide)).trans (row6 m ρ c)
theorem col7 : W7 m ρ c (dr main_v6) = colOf (F := Ideal) (W0 m ρ c (dr main_arg1)) :=
  (W7_of_ne m ρ c main_v6 (by decide)).trans (col6 m ρ c)
theorem norm7 : W7 m ρ c (dr main_v29) = weightsOf (F := Ideal) (W0 m ρ c (dr main_arg1)) :=
  (W7_of_ne m ρ c main_v29 (by decide)).trans (norm6 m ρ c)
theorem arg5_7 : W7 m ρ c (dr main_arg5) = W0 m ρ c (dr main_arg5) :=
  (W7_of_ne m ρ c main_arg5 (by decide)).trans (arg5_6 m ρ c)

/-! ## After the second aggregation's stretch, and the last region -/

theorem agg8 : W8 m ρ c (dr main_v59)
    = aggOf64 (F := Ideal) (rowOf (F := Ideal) (W0 m ρ c (dr main_arg1))) (colOf (F := Ideal) (W0 m ρ c (dr main_arg1)))
        (weightsOf (F := Ideal) (W0 m ρ c (dr main_arg1)))
        (mm2 (F := Ideal) (hiddenOf (F := Ideal) (W0 m ρ c (dr main_arg0)) (W0 m ρ c (dr main_arg1)) (W0 m ρ c (dr main_arg2)) (W0 m ρ c (dr main_arg3)))
          (W0 m ρ c (dr main_arg4))) := by
  refine (s4_agg (W7 m ρ c)).trans ?_
  rw [row7, col7, norm7, prod7]
theorem bias8 : W8 m ρ c (dr main_v60) = rowOf64 (F := Ideal) (W0 m ρ c (dr main_arg5)) := by
  refine (s4_bias (W7 m ρ c)).trans ?_
  rw [arg5_7]
  exact row_cast64 _ _

/-- At the last boundary the result buffer holds the network function of the six arguments' launch contents. -/
theorem result_eq : W9 m ρ c (dr main_v61)
    = gcnOut (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h : W9 m ρ c (dr main_v61) = bias64 (F := Ideal) (W8 m ρ c (dr main_v59)) (W8 m ρ c (dr main_v60)) :=
    (W9_arr m ρ c 2).trans (Region3.final (V8 m ρ) c)
  rw [h, agg8, bias8]
  rfl

end Cert.KernelIdeal.KernelValue

end
-- ==== Proof.RefValue.lean ====
/-
  The reference program's result as the network function.

  The reference's @main is 123 host operations in a row, taken here as ten consecutive lists. Each list is read as a
  function of the buffers it starts from, over an arbitrary valuation `V`: a product, the edges' endpoints, the inverse
  square roots of the degrees, the edges' weights, an aggregation, a bias — the reference computes the endpoints and the
  weights once per layer, each time by the same operations of the edge array. A buffer that a list does not write keeps
  its contents. Folding the ten lists from the launch contents gives the result buffer as `Graph.gcnOut` of the six
  arguments, for any float values.
-/
import proofs.«107062_j30700426232142_1_alg».proof.Proof.RefOps
import proofs.«107062_j30700426232142_1_alg».proof.Proof.Network

set_option maxRecDepth 16384

noncomputable section

namespace Cert.ReferenceIdeal.HandValue

open Cert.ReferenceIdeal Cert.ReferenceIdeal.ValueP Cert.Graph
open Idealize.ShloMosaic Idealize.ShloMosaic.TcCoe Idealize.SL.Sem Idealize.ShloMosaic.StableHlo

variable {F : FTy → Type} [FloatOps F]

local notation "dr" => Proc.devRef (τ := τ) (sig := sig) Proc.tc

/-- Folding two lists one after the other is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

variable (V : Valuation τ sig (Elt F))

/-! ## Operations of list A: the first product and the edges' endpoints -/

set_option maxHeartbeats 4000000 in
theorem A_mm : after opsA V (dr main_v0) = mm1 (F := F) (V (dr main_arg0)) (V (dr main_arg2)) := by
  after_results_simp <;> rfl
set_option maxHeartbeats 4000000 in
theorem A_row : after opsA V (dr main_v4) = rowOf (F := F) (V (dr main_arg1)) := by
  after_results_simp <;> rfl
set_option maxHeartbeats 4000000 in
theorem A_col : after opsA V (dr main_v7) = colOf (F := F) (V (dr main_arg1)) := by
  after_results_simp <;> rfl
theorem A_keeps_arg1 : after opsA V (dr main_arg1) = V (dr main_arg1) := by after_results_simp
theorem A_keeps_arg3 : after opsA V (dr main_arg3) = V (dr main_arg3) := by after_results_simp
theorem A_keeps_arg4 : after opsA V (dr main_arg4) = V (dr main_arg4) := by after_results_simp
theorem A_keeps_arg5 : after opsA V (dr main_arg5) = V (dr main_arg5) := by after_results_simp

/-! ## Operations of list B: the inverse square roots of the degrees -/

set_option maxHeartbeats 4000000 in
theorem B_dinv : after opsB V (dr main_v15) = dinvOf (F := F) (V (dr main_v7)) := by
  after_results_simp <;> rfl
theorem B_keeps_v0 : after opsB V (dr main_v0) = V (dr main_v0) := by after_results_simp
theorem B_keeps_v4 : after opsB V (dr main_v4) = V (dr main_v4) := by after_results_simp
theorem B_keeps_v7 : after opsB V (dr main_v7) = V (dr main_v7) := by after_results_simp
theorem B_keeps_arg3 : after opsB V (dr main_arg3) = V (dr main_arg3) := by after_results_simp
theorem B_keeps_arg4 : after opsB V (dr main_arg4) = V (dr main_arg4) := by after_results_simp
theorem B_keeps_arg5 : after opsB V (dr main_arg5) = V (dr main_arg5) := by after_results_simp
theorem B_keeps_arg1 : after opsB V (dr main_arg1) = V (dr main_arg1) := by after_results_simp

/-! ## Operations of list C: the edges' weights -/

set_option maxHeartbeats 4000000 in
theorem C_norm : after opsC V (dr main_v30) = normOf (F := F) (V (dr main_v4)) (V (dr main_v7)) (V (dr main_v15)) := by
  after_results_simp <;> rfl
theorem C_keeps_v0 : after opsC V (dr main_v0) = V (dr main_v0) := by after_results_simp
theorem C_keeps_v4 : after opsC V (dr main_v4) = V (dr main_v4) := by after_results_simp
theorem C_keeps_v7 : after opsC V (dr main_v7) = V (dr main_v7) := by after_results_simp
theorem C_keeps_arg3 : after opsC V (dr main_arg3) = V (dr main_arg3) := by after_results_simp
theorem C_keeps_arg4 : after opsC V (dr main_arg4) = V (dr main_arg4) := by after_results_simp
theorem C_keeps_arg5 : after opsC V (dr main_arg5) = V (dr main_arg5) := by after_results_simp
theorem C_keeps_arg1 : after opsC V (dr main_arg1) = V (dr main_arg1) := by after_results_simp

/-! ## Operations of list D: the first aggregation -/

set_option maxHeartbeats 4000000 in
theorem D_agg : after opsD V (dr main_v43) = aggOf128 (F := F) (V (dr main_v4)) (V (dr main_v7)) (V (dr main_v30)) (V (dr main_v0)) := by
  after_results_simp <;> rfl
theorem D_keeps_arg1 : after opsD V (dr main_arg1) = V (dr main_arg1) := by after_results_simp
theorem D_keeps_arg3 : after opsD V (dr main_arg3) = V (dr main_arg3) := by after_results_simp
theorem D_keeps_arg4 : after opsD V (dr main_arg4) = V (dr main_arg4) := by after_results_simp
theorem D_keeps_arg5 : after opsD V (dr main_arg5) = V (dr main_arg5) := by after_results_simp

/-! ## Operations of list E: the first bias and maximum with zero, then the second product -/

set_option maxHeartbeats 4000000 in
theorem E_mm : after opsE V (dr main_v48) = mm2 (F := F) (biasRelu128 (F := F) (V (dr main_v43)) (rowOf128 (F := F) (V (dr main_arg3)))) (V (dr main_arg4)) := by
  after_results_simp <;> rfl
theorem E_keeps_arg1 : after opsE V (dr main_arg1) = V (dr main_arg1) := by after_results_simp
theorem E_keeps_arg5 : after opsE V (dr main_arg5) = V (dr main_arg5) := by after_results_simp

/-! ## Operations of list F: the edges' endpoints, computed again -/

set_option maxHeartbeats 4000000 in
theorem F_row : after opsF V (dr main_v52) = rowOf (F := F) (V (dr main_arg1)) := by
  after_results_simp <;> rfl
set_option maxHeartbeats 4000000 in
theorem F_col : after opsF V (dr main_v55) = colOf (F := F) (V (dr main_arg1)) := by
  after_results_simp <;> rfl
theorem F_keeps_v48 : after opsF V (dr main_v48) = V (dr main_v48) := by after_results_simp
theorem F_keeps_arg5 : after opsF V (dr main_arg5) = V (dr main_arg5) := by after_results_simp

/-! ## Operations of list G: the inverse square roots of the degrees, again -/

set_option maxHeartbeats 4000000 in
theorem G_dinv : after opsG V (dr main_v63) = dinvOf (F := F) (V (dr main_v55)) := by
  after_results_simp <;> rfl
theorem G_keeps_v48 : after opsG V (dr main_v48) = V (dr main_v48) := by after_results_simp
theorem G_keeps_v52 : after opsG V (dr main_v52) = V (dr main_v52) := by after_results_simp
theorem G_keeps_v55 : after opsG V (dr main_v55) = V (dr main_v55) := by after_results_simp
theorem G_keeps_arg5 : after opsG V (dr main_arg5) = V (dr main_arg5) := by after_results_simp

/-! ## Operations of list H: the edges' weights, again -/

set_option maxHeartbeats 4000000 in
theorem H_norm : after opsH V (dr main_v78) = normOf (F := F) (V (dr main_v52)) (V (dr main_v55)) (V (dr main_v63)) := by
  after_results_simp <;> rfl
theorem H_keeps_v48 : after opsH V (dr main_v48) = V (dr main_v48) := by after_results_simp
theorem H_keeps_v52 : after opsH V (dr main_v52) = V (dr main_v52) := by after_results_simp
theorem H_keeps_v55 : after opsH V (dr main_v55) = V (dr main_v55) := by after_results_simp
theorem H_keeps_arg5 : after opsH V (dr main_arg5) = V (dr main_arg5) := by after_results_simp

/-! ## Operations of list I: the second aggregation -/

set_option maxHeartbeats 4000000 in
theorem I_agg : after opsI V (dr main_v91) = aggOf64 (F := F) (V (dr main_v52)) (V (dr main_v55)) (V (dr main_v78)) (V (dr main_v48)) := by
  after_results_simp <;> rfl
theorem I_keeps_arg5 : after opsI V (dr main_arg5) = V (dr main_arg5) := by after_results_simp

/-! ## Operations of list J: the second bias -/

set_option maxHeartbeats 4000000 in
theorem J_out : after opsJ V (dr main_v94) = bias64 (F := F) (V (dr main_v91)) (rowOf64 (F := F) (V (dr main_arg5))) := by
  after_results_simp <;> rfl

/-! ## The whole program -/

set_option maxHeartbeats 4000000 in
/-- The result buffer after all 123 operations is the network function of the six argument buffers. -/
theorem result_eq : after (ops (F := F)) V (dr main_v94)
    = gcnOut (F := F) (V (dr main_arg0)) (V (dr main_arg1)) (V (dr main_arg2)) (V (dr main_arg3)) (V (dr main_arg4)) (V (dr main_arg5)) := by
  rw [ops_split]
  simp only [after_append]
  repeat (first
    | rw [A_mm]
    | rw [A_row]
    | rw [A_col]
    | rw [A_keeps_arg1]
    | rw [A_keeps_arg3]
    | rw [A_keeps_arg4]
    | rw [A_keeps_arg5]
    | rw [B_dinv]
    | rw [B_keeps_v0]
    | rw [B_keeps_v4]
    | rw [B_keeps_v7]
    | rw [B_keeps_arg3]
    | rw [B_keeps_arg4]
    | rw [B_keeps_arg5]
    | rw [B_keeps_arg1]
    | rw [C_norm]
    | rw [C_keeps_v0]
    | rw [C_keeps_v4]
    | rw [C_keeps_v7]
    | rw [C_keeps_arg3]
    | rw [C_keeps_arg4]
    | rw [C_keeps_arg5]
    | rw [C_keeps_arg1]
    | rw [D_agg]
    | rw [D_keeps_arg1]
    | rw [D_keeps_arg3]
    | rw [D_keeps_arg4]
    | rw [D_keeps_arg5]
    | rw [E_mm]
    | rw [E_keeps_arg1]
    | rw [E_keeps_arg5]
    | rw [F_row]
    | rw [F_col]
    | rw [F_keeps_v48]
    | rw [F_keeps_arg5]
    | rw [G_dinv]
    | rw [G_keeps_v48]
    | rw [G_keeps_v52]
    | rw [G_keeps_v55]
    | rw [G_keeps_arg5]
    | rw [H_norm]
    | rw [H_keeps_v48]
    | rw [H_keeps_v52]
    | rw [H_keeps_v55]
    | rw [H_keeps_arg5]
    | rw [I_agg]
    | rw [I_keeps_arg5]
    | rw [J_out])
  rfl

end Cert.ReferenceIdeal.HandValue

end
-- ==== Proof.RefFrame.lean ====
/-
  The reference program writes none of its six arguments: after all 123 operations each argument buffer holds what it
  held at the launch, whatever the float values.
-/
import proofs.«107062_j30700426232142_1_alg».proof.Proof.RefOps

set_option maxRecDepth 16384

noncomputable section

namespace Cert.ReferenceIdeal.HandValue

open Cert.ReferenceIdeal Cert.ReferenceIdeal.ValueP
open Idealize.ShloMosaic Idealize.ShloMosaic.TcCoe Idealize.SL.Sem Idealize.ShloMosaic.StableHlo

variable {F : FTy → Type} [FloatOps F]

local notation "dr" => Proc.devRef (τ := τ) (sig := sig) Proc.tc

variable (V : Valuation τ sig (Elt F))

set_option maxHeartbeats 4000000 in
theorem keeps_arg0 : after (ops (F := F)) V (dr main_arg0) = V (dr main_arg0) := by after_results_simp
set_option maxHeartbeats 4000000 in
theorem keeps_arg1 : after (ops (F := F)) V (dr main_arg1) = V (dr main_arg1) := by after_results_simp
set_option maxHeartbeats 4000000 in
theorem keeps_arg2 : after (ops (F := F)) V (dr main_arg2) = V (dr main_arg2) := by after_results_simp
set_option maxHeartbeats 4000000 in
theorem keeps_arg3 : after (ops (F := F)) V (dr main_arg3) = V (dr main_arg3) := by after_results_simp
set_option maxHeartbeats 4000000 in
theorem keeps_arg4 : after (ops (F := F)) V (dr main_arg4) = V (dr main_arg4) := by after_results_simp
set_option maxHeartbeats 4000000 in
theorem keeps_arg5 : after (ops (F := F)) V (dr main_arg5) = V (dr main_arg5) := by after_results_simp

end Cert.ReferenceIdeal.HandValue

end
-- ==== Proof.lean ====
/-
  A two-layer graph convolution: four tiled kernel regions among host gathers and scatters, against the same network
  written as host operations only.

  Both programs take node features `x` (100000 × 128), an edge array `e` (2 × 1600000), and two layers' weights and
  biases. A layer multiplies the features by its weight matrix, sends each product row along the graph's edges
  (the given ones and one self-loop per node), each edge weighted by degree^(-1/2) of its two ends, sums what arrives
  at each node, and adds the bias; the first layer then takes the maximum with zero. The graph side — the edges'
  endpoints, the degrees, the weights, the gathers and the scatter-adds — is the same host operations in both
  programs (`Proof/Graph.lean`); the kernel computes the weights once, the reference once per layer, from the same edge
  array.

  The dense side differs in shape only. The kernel computes each product in twenty blocks of 5000 rows on the matrix
  unit, from operands cast to a narrower float format — the identity on the extended reals — and an accumulator of
  zeros; row `r` of a product depends on row `r` of the left operand alone, so the blocks are the block rows of the
  host's one `dot_general` (`Proof/Region0.lean`, `Region2.lean`: both are the same finite sums of products, entry by
  entry, and no entry has to be finite). The kernel adds a bias to a block of rows from the bias laid out as one row;
  the reference broadcasts that row over all rows (`Proof/Region1.lean`, `Region3.lean`).

  So both results are `Graph.gcnOut x e w1 b1 w2 b2` (`Proof/Network.lean`): the kernel's by following its run through
  its nine segments (`Proof/NamedRun.lean`, `KernelHost.lean`, `KernelValue.lean`), the reference's by folding its 123
  operations (`Proof/RefValue.lean`). No law of arithmetic beyond the definition of a matrix product as a sum is
  used, so the precondition (finite inputs) is never opened.
-/
import proofs.«107062_j30700426232142_1_alg».proof.Defs
import proofs.«107062_j30700426232142_1_alg».proof.Proof.Gen.Kernel
import proofs.«107062_j30700426232142_1_alg».proof.Proof.Gen.Kernel.Skeleton
import proofs.«107062_j30700426232142_1_alg».proof.Proof.Gen.Kernel.Launch
import proofs.«107062_j30700426232142_1_alg».proof.Proof.Gen.Kernel.Points
import proofs.«107062_j30700426232142_1_alg».proof.Proof.Gen.Kernel.Frame
import proofs.«107062_j30700426232142_1_alg».proof.Proof.Gen.KernelIdeal
import proofs.«107062_j30700426232142_1_alg».proof.Proof.Gen.KernelIdeal.Skeleton
import proofs.«107062_j30700426232142_1_alg».proof.Proof.Gen.KernelIdeal.Launch
import proofs.«107062_j30700426232142_1_alg».proof.Proof.Gen.KernelIdeal.Points
import proofs.«107062_j30700426232142_1_alg».proof.Proof.Gen.KernelIdeal.Frame
import proofs.«107062_j30700426232142_1_alg».proof.Proof.Gen.ReferenceIdeal
import proofs.«107062_j30700426232142_1_alg».proof.Proof.Gen.Pre_finite_inputs
import proofs.«107062_j30700426232142_1_alg».proof.Proof.NamedRun
import proofs.«107062_j30700426232142_1_alg».proof.Proof.KernelValue
import proofs.«107062_j30700426232142_1_alg».proof.Proof.RefValue
import proofs.«107062_j30700426232142_1_alg».proof.Proof.RefFrame
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: none of its operations writes one. -/
theorem frame_reference : Cert.frame_ReferenceIdeal := fun m ρ _ =>
  (θ_run Cert.ReferenceIdeal.defs _ _).mono (fun r h c =>
    ⟨(h c Cert.ReferenceIdeal.main_arg0).trans (Cert.ReferenceIdeal.HandValue.keeps_arg0 _),
     (h c Cert.ReferenceIdeal.main_arg1).trans (Cert.ReferenceIdeal.HandValue.keeps_arg1 _),
     (h c Cert.ReferenceIdeal.main_arg2).trans (Cert.ReferenceIdeal.HandValue.keeps_arg2 _),
     (h c Cert.ReferenceIdeal.main_arg3).trans (Cert.ReferenceIdeal.HandValue.keeps_arg3 _),
     (h c Cert.ReferenceIdeal.main_arg4).trans (Cert.ReferenceIdeal.HandValue.keeps_arg4 _),
     (h c Cert.ReferenceIdeal.main_arg5).trans (Cert.ReferenceIdeal.HandValue.keeps_arg5 _)⟩)
    (Cert.ReferenceIdeal.ValueP.run_raw (F := Ideal) m ρ)

/-- The idealization rewrote nothing. -/
theorem preserves : Cert.preserves_Kernel_KernelIdeal := trivial

/-- On the extended reals both programs end with the network function of their (equal) arguments in the result. -/
theorem algebraic : Cert.algebraic_KernelIdeal_ReferenceIdeal := by
  intro m ρ m' ρ' _ hagree
  refine ⟨fun c => Cert.Graph.gcnOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.RunValue.run_named (F := Ideal) m ρ)
  · refine (θ_run Cert.ReferenceIdeal.defs _ _).mono (fun r h c =>
      ⟨?_,
       (h c Cert.ReferenceIdeal.main_arg0).trans (Cert.ReferenceIdeal.HandValue.keeps_arg0 _),
       (h c Cert.ReferenceIdeal.main_arg1).trans (Cert.ReferenceIdeal.HandValue.keeps_arg1 _),
       (h c Cert.ReferenceIdeal.main_arg2).trans (Cert.ReferenceIdeal.HandValue.keeps_arg2 _),
       (h c Cert.ReferenceIdeal.main_arg3).trans (Cert.ReferenceIdeal.HandValue.keeps_arg3 _),
       (h c Cert.ReferenceIdeal.main_arg4).trans (Cert.ReferenceIdeal.HandValue.keeps_arg4 _),
       (h c Cert.ReferenceIdeal.main_arg5).trans (Cert.ReferenceIdeal.HandValue.keeps_arg5 _)⟩)
      (Cert.ReferenceIdeal.ValueP.run_raw (F := Ideal) m' ρ')
    refine (h c Cert.ReferenceIdeal.main_v94).trans ((Cert.ReferenceIdeal.HandValue.result_eq _).trans ?_)
    obtain ⟨a0, a1, a2, a3, a4, a5⟩ := hagree c
    show Cert.Graph.gcnOut (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
